-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S4096 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S4096x1 : Shape := ⟨2, ![4096, 1]⟩
abbrev S1x4096 : Shape := ⟨2, ![1, 4096]⟩
abbrev S512x1024 : Shape := ⟨2, ![512, 1024]⟩
abbrev S512x1 : Shape := ⟨2, ![512, 1]⟩
abbrev S1x512 : Shape := ⟨2, ![1, 512]⟩
abbrev S512x512 : Shape := ⟨2, ![512, 512]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S4096x1, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .i32⟩
  | .local _ .vmem, ⟨3, _⟩ => ⟨S512x1024, .i32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S4096_S4096x1 : S4096.ShapeCasts S4096x1
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S8192x4096_S4x2048x4096 : S8192x4096.ShapeCasts S4x2048x4096
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .i32 = 32 ∨ (Rect.block (s := S4096x4096) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x4096.size a
  hwx0_4 : ∀ i : grid0.Coords, EltTy.bits .f32 = 32 ∨ (Rect.block (s := S8192x4096) S512x512.size (cc0_transform_4 i) (hinb0_4 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x1 : Shape := ⟨2, ![4096, 1]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x1, .f32⟩
  | .hbm, ⟨6, _⟩ => ⟨S4096x4096, .f32⟩
  | .hbm, ⟨7, _⟩ => ⟨S4096x4096, .f32⟩
  | .hbm, ⟨8, _⟩ => ⟨S4x2048x4096, .f32⟩
  | .hbm, ⟨9, _⟩ => ⟨S1x1x4096, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
import proofs.«182016_j59012850647279_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

/-!
  What one run of the kernel body leaves behind, as values.

  The body keeps a [512, 512] accumulator in a scratch buffer. At the first step of a reduction (the innermost grid
  coordinate is 0) it first stores the zero block there; at every step it then replaces the accumulator `acc` by
  `acc + x · wᵀ` (one store), reads it back, and stores `acc + bias` into the output's staging buffer. So, whatever
  buffers it is run on:

    * a first step leaves  `0 + x · wᵀ`  in the scratch and that plus the bias row in the output's buffer;
    * a later step, entered with `acc` in the scratch, leaves  `acc + x · wᵀ`  and that plus the bias row.

  Here `x · wᵀ` and the bias broadcast are kept as the two named payload terms of the body; they are opened at an
  index elsewhere. Each lemma reads the stores the run found back through the covering-store laws: the last store
  through the whole block decides the contents, and a load of a block that one store covers reads that store's value.
-/
namespace Cert.KernelIdeal.Pieces
open Cert.KernelIdeal Cert.KernelIdeal.Gen
variable {F : FTy → Type} [FloatOps F]

/-- The zero offsets of a whole-block access, as the constant function. -/
theorem hz : (![0, 0] : Fin 2 → Nat) = fun _ => 0 := funext fun a => by fin_cases a <;> rfl

/-- A load through the whole block of what a list of stores left, the LAST of them through the whole block: that
    store's value. -/
theorem readCov_head_whole {sp : Space} (v : View sig .tc sp S512x512 .f32)
    (inb : ∀ a, (![0, 0] : Fin 2 → Nat) a + S512x512.size a ≤ S512x512.size a) (w : S512x512.Idx → Elt F .f32)
    (L : List (View.Piece (Elt F) S512x512 .f32)) :
    v.readCov ((⟨Rect.unit ![0, 0] S512x512.size inb, w⟩ : View.Piece (Elt F) S512x512 .f32) :: L)
      (Rect.unit ![0, 0] S512x512.size inb).toLoadRect = w := by
  rw [View.readCov_eq_canon_ld _ _ _ (fun y => ⟨_, List.mem_cons_self, View.mem_set_unit_zero hz inb y⟩),
    View.canon_cons_unit_zero hz, View.ld_unit_zero hz]

/-- A later step's accumulator: `acc + x · wᵀ`. -/
theorem sout_B (c : Dev nD) (i : grid0.Coords) (a3 : Memref sig .tc .vmem S512x1024 .f32) (h3 : a3.IsWhole)
    (a4 : Memref sig .tc .vmem S512x1024 .i32) (h4 : a4.IsWhole) (a5 : Memref sig .tc .vmem S512x1 .f32) (h5 : a5.IsWhole)
    (a6 : Memref sig .tc .vmem S1x512 .f32) (h6 : a6.IsWhole) (a7 : Memref sig .tc .vmem S512x512 .f32) (h7 : a7.IsWhole)
    (a8 : Memref sig .tc .vmem S512x512 .f32) (h8 : a8.IsWhole) (hc : ¬cond0_0 i)
    (x0 : Vec F S512x1024 .f32) (x1 : Vec F S512x1024 .i32) (x2 : Vec F S512x1 .f32) (x3 : Vec F S1x512 .f32) (xs : Vec F S512x512 .f32) :
    sout0_B_0 c i a3 h3 a4 h4 a5 h5 a6 h6 a7 h7 a8 h8 hc x0 x1 x2 x3 xs = k0_pay2 x0 x1 x2 xs := by
  unfold sout0_B_0
  rw [View.read_writes_eq_canon _ _ _ (scover0_B_0 c i a3 h3 a4 h4 a5 h5 a6 h6 a7 h7 a8 h8 hc x0 x1 x2 x3 xs)]
  unfold kernelRun0_B
  dsimp only
  sl_unfold_words
  rw [View.canon_unit_zero hz]
  simp only [View.readAt_eq_ld, h3.read_unread, h4.read_unread, h5.read_unread, h6.read_unread, h8.read_unread,
    View.ld_unit_zero (S := S512x1024) hz, View.ld_unit_zero (S := S512x1) hz, View.ld_unit_zero (S := S1x512) hz,
    View.ld_unit_zero (S := S512x512) hz]

/-- A later step's output block: the new accumulator plus the bias row. -/
theorem out_B (c : Dev nD) (i : grid0.Coords) (a3 : Memref sig .tc .vmem S512x1024 .f32) (h3 : a3.IsWhole)
    (a4 : Memref sig .tc .vmem S512x1024 .i32) (h4 : a4.IsWhole) (a5 : Memref sig .tc .vmem S512x1 .f32) (h5 : a5.IsWhole)
    (a6 : Memref sig .tc .vmem S1x512 .f32) (h6 : a6.IsWhole) (a7 : Memref sig .tc .vmem S512x512 .f32) (h7 : a7.IsWhole)
    (a8 : Memref sig .tc .vmem S512x512 .f32) (h8 : a8.IsWhole) (hc : ¬cond0_0 i)
    (x0 : Vec F S512x1024 .f32) (x1 : Vec F S512x1024 .i32) (x2 : Vec F S512x1 .f32) (x3 : Vec F S1x512 .f32) (xs : Vec F S512x512 .f32) :
    out0_B_4 c i a3 h3 a4 h4 a5 h5 a6 h6 a7 h7 a8 h8 hc x0 x1 x2 x3 xs = k0_pay3 (k0_pay2 x0 x1 x2 xs) x3 := by
  unfold out0_B_4
  rw [View.read_writes_eq_canon _ _ _ (cover0_B_4 c i a3 h3 a4 h4 a5 h5 a6 h6 a7 h7 a8 h8 hc x0 x1 x2 x3 xs)]
  unfold kernelRun0_B
  dsimp only
  sl_unfold_words
  rw [View.canon_unit_zero hz, readCov_head_whole]
  simp only [View.readAt_eq_ld, h3.read_unread, h4.read_unread, h5.read_unread, h6.read_unread, h8.read_unread,
    View.ld_unit_zero (S := S512x1024) hz, View.ld_unit_zero (S := S512x1) hz, View.ld_unit_zero (S := S1x512) hz,
    View.ld_unit_zero (S := S512x512) hz]

/-- A first step's accumulator: `0 + x · wᵀ`, the zero block being what the reset stored and the update read back. -/
theorem sout_A (c : Dev nD) (i : grid0.Coords) (a3 : Memref sig .tc .vmem S512x1024 .f32) (h3 : a3.IsWhole)
    (a4 : Memref sig .tc .vmem S512x1024 .i32) (h4 : a4.IsWhole) (a5 : Memref sig .tc .vmem S512x1 .f32) (h5 : a5.IsWhole)
    (a6 : Memref sig .tc .vmem S1x512 .f32) (h6 : a6.IsWhole) (a7 : Memref sig .tc .vmem S512x512 .f32) (h7 : a7.IsWhole)
    (a8 : Memref sig .tc .vmem S512x512 .f32) (h8 : a8.IsWhole) (hc : cond0_0 i)
    (x0 : Vec F S512x1024 .f32) (x1 : Vec F S512x1024 .i32) (x2 : Vec F S512x1 .f32) (x3 : Vec F S1x512 .f32) :
    sout0_A_0 c i a3 h3 a4 h4 a5 h5 a6 h6 a7 h7 a8 h8 hc x0 x1 x2 x3 = k0_pay2 x0 x1 x2 k0_pay1 := by
  unfold sout0_A_0
  rw [View.read_writes_eq_canon _ _ _ (scover0_A_0 c i a3 h3 a4 h4 a5 h5 a6 h6 a7 h7 a8 h8 hc x0 x1 x2 x3)]
  unfold kernelRun0_A
  dsimp only
  sl_unfold_words
  rw [View.canon_cons_unit_zero hz, readCov_head_whole]
  simp only [View.readAt_eq_ld, h3.read_unread, h4.read_unread, h5.read_unread, h6.read_unread, h8.read_unread,
    View.ld_unit_zero (S := S512x1024) hz, View.ld_unit_zero (S := S512x1) hz, View.ld_unit_zero (S := S1x512) hz,
    View.ld_unit_zero (S := S512x512) hz]

/-- A first step's output block: that accumulator plus the bias row. -/
theorem out_A (c : Dev nD) (i : grid0.Coords) (a3 : Memref sig .tc .vmem S512x1024 .f32) (h3 : a3.IsWhole)
    (a4 : Memref sig .tc .vmem S512x1024 .i32) (h4 : a4.IsWhole) (a5 : Memref sig .tc .vmem S512x1 .f32) (h5 : a5.IsWhole)
    (a6 : Memref sig .tc .vmem S1x512 .f32) (h6 : a6.IsWhole) (a7 : Memref sig .tc .vmem S512x512 .f32) (h7 : a7.IsWhole)
    (a8 : Memref sig .tc .vmem S512x512 .f32) (h8 : a8.IsWhole) (hc : cond0_0 i)
    (x0 : Vec F S512x1024 .f32) (x1 : Vec F S512x1024 .i32) (x2 : Vec F S512x1 .f32) (x3 : Vec F S1x512 .f32) :
    out0_A_4 c i a3 h3 a4 h4 a5 h5 a6 h6 a7 h7 a8 h8 hc x0 x1 x2 x3 = k0_pay3 (k0_pay2 x0 x1 x2 k0_pay1) x3 := by
  unfold out0_A_4
  rw [View.read_writes_eq_canon _ _ _ (cover0_A_4 c i a3 h3 a4 h4 a5 h5 a6 h6 a7 h7 a8 h8 hc x0 x1 x2 x3)]
  unfold kernelRun0_A
  dsimp only
  sl_unfold_words
  rw [View.canon_unit_zero hz, readCov_head_whole, readCov_head_whole]
  simp only [View.readAt_eq_ld, h3.read_unread, h4.read_unread, h5.read_unread, h6.read_unread, h8.read_unread,
    View.ld_unit_zero (S := S512x1024) hz, View.ld_unit_zero (S := S512x1) hz, View.ld_unit_zero (S := S1x512) hz,
    View.ld_unit_zero (S := S512x512) hz]

end Cert.KernelIdeal.Pieces
end
-- ==== Proof.LibKeepdims.lean ====
/-
  Column-shaped layout operations read at an index given by coordinates.

  A sum taken along the last axis with the axis kept (a "keepdims" row sum) leaves a COLUMN: the vector of
  sums `[a]` is re-laid as `[a, 1]` and then broadcast along the new unit axis to `[a, b]`. Read at `(p, c)`
  each of the two steps returns the operand's entry for row `p`, whatever the column `c`: the cast because
  the row-major position of `(p, 0)` in `[a, 1]` is `p · 1 + 0 = p`, the broadcast because a unit axis is read
  at `0` and every other axis at the result's own coordinate. (The transposed pair — a vector re-laid as one row
  `[1, b]` and that row broadcast over `a` rows — is already in the layout library.)
-/
import Idealize.ShloMosaic.Lib.Pipeline.Value
import Idealize.ShloMosaic.Lib.ValueIdx

namespace Cert.Lib.Keepdims

open Idealize.ShloMosaic Idealize.ShloMosaic.ValueIdx

variable {α : Type}

/-- An `[a]` vector cast to the column `[a, 1]` reads, at `(i, u)`, the operand at `i`: the unit coordinate `u`
    is `0`, and `(i, 0)` sits at row-major position `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry for row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Payload.lean ====
import proofs.«182016_j59012850647279_1_alg».proof.Proof.Gen.KernelIdeal.Frame
import Idealize.ShloMosaic.Lib.Pipeline.Value
import Idealize.ShloMosaic.Lib.ValueIdx
import Idealize.ShloMosaic.Lib.Tactic
import Idealize.ShloMosaic.Lib.ValueLayout
import Idealize.ShloMosaic.PureOps.Ideal.Laws
import proofs.«182016_j59012850647279_1_alg».proof.Proof.LibKeepdims
set_option maxRecDepth 16384

noncomputable section

open Idealize.ShloMosaic Idealize.ShloMosaic.TcCoe Idealize.SL.Sem
open Idealize.ShloMosaic.Pipeline (Dat)

/-!
  The body's three stored values, entry by entry, over the extended reals.

  Read exactly — a float an extended real, every operation the textbook one, the two roundings to bf16 the identity —
  the body's update of the accumulator at row `p`, column `q` of the [512, 512] block is

      acc(p, q) + Σ_{r < 1024} x(p, r) · ( float(code(q, r)) · scale(q) ),

  where `x` is the [512, 1024] block of activations, `code` the [512, 1024] block of integer weight codes, `scale`
  the [512, 1] column of per-output-channel scales (broadcast along the row), and the sum is the matrix product's
  contraction over the shared inner axis (both operands are contracted on their second axis: the weights are used
  transposed). The reset value is 0 everywhere, and the output entry is `acc(p, q) + bias(q)`, `bias` the [1, 512] row
  broadcast down the columns.
-/
namespace Cert.KernelIdeal.Payload
open Cert.KernelIdeal Cert.KernelIdeal.Gen Idealize.ShloMosaic.ValueIdx

/-- The reset block is zero at every entry. -/
theorem pay1_apply (j : S512x512.Idx) : k0_pay1 (F := Ideal) j = 0 := by
  unfold k0_pay1
  rw [shapeCast_self]
  show Ideal.ofBits .f32 0x00000000#32 = 0
  exact Ideal.ofBits_zero_f32

/-! The matrix product's operand indices at output entry `j` and contraction index `k`: the left operand is read at
    `(j₀, k)`, the right at `(j₁, k)`. -/
theorem lhs_0 (j : S512x512.Idx) (k : dot_S512x1024_S512x1024_S512x512_1_1_0_0_n_n.contr.Idx) : (dot_S512x1024_S512x1024_S512x512_1_1_0_0_n_n.lhsIdx j k 0).val = (j 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_1 (j : S512x512.Idx) (k : dot_S512x1024_S512x1024_S512x512_1_1_0_0_n_n.contr.Idx) : (dot_S512x1024_S512x1024_S512x512_1_1_0_0_n_n.lhsIdx j k 1).val = (k ⟨0, by decide⟩).val :=
  dot_S512x1024_S512x1024_S512x512_1_1_0_0_n_n.lhsIdx_val_of_single rfl j k
theorem rhs_0 (j : S512x512.Idx) (k : dot_S512x1024_S512x1024_S512x512_1_1_0_0_n_n.contr.Idx) : (dot_S512x1024_S512x1024_S512x512_1_1_0_0_n_n.rhsIdx j k 0).val = (j 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_1 (j : S512x512.Idx) (k : dot_S512x1024_S512x1024_S512x512_1_1_0_0_n_n.contr.Idx) : (dot_S512x1024_S512x1024_S512x512_1_1_0_0_n_n.rhsIdx j k 1).val = (k ⟨0, by decide⟩).val :=
  dot_S512x1024_S512x1024_S512x512_1_1_0_0_n_n.rhsIdx_val_of_single rfl j k

/-- The product of two [512, 1024] blocks contracted on their second axes, into the zero block, at `(p, q)`: the sum
    over the 1024 inner positions of left `(p, r)` times right `(q, r)`. -/
theorem matmul_zero_apply (l r : FVec Ideal S512x1024 .bf16) (p q : Fin 512) :
    matmul dot_S512x1024_S512x1024_S512x512_1_1_0_0_n_n none l r (constant S512x512 .f32 0x00000000#32) (ix2 p q)
      = ∑ k : Fin 1024, l (ix2 p k) * r (ix2 q k) := by
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 p q) ((contrEquiv1 dot_S512x1024_S512x1024_S512x512_1_1_0_0_n_n 1024 rfl rfl).symm k) = ix2 p k := funext fun a => Fin.ext (by
    match a with
    | ⟨0, _⟩ => exact lhs_0 _ _
    | ⟨1, _⟩ => exact (lhs_1 _ _).trans hk)
  have er : dot_S512x1024_S512x1024_S512x512_1_1_0_0_n_n.rhsIdx (ix2 p q) ((contrEquiv1 dot_S512x1024_S512x1024_S512x512_1_1_0_0_n_n 1024 rfl rfl).symm k) = ix2 q k := funext fun a => Fin.ext (by
    match a with
    | ⟨0, _⟩ => exact rhs_0 _ _
    | ⟨1, _⟩ => exact (rhs_1 _ _).trans hk)
  rw [el, er]

/-- The accumulator's update at `(p, q)`. -/
theorem pay2_apply (x0 : Vec Ideal S512x1024 .f32) (x1 : Vec Ideal S512x1024 .i32) (x2 : Vec Ideal S512x1 .f32)
    (acc : Vec Ideal S512x512 .f32) (p q : Fin 512) :
    k0_pay2 (F := Ideal) x0 x1 x2 acc (ix2 p q)
      = acc (ix2 p q) + ∑ r : Fin 1024, x0 (ix2 p r) * (FloatOps.sitofp (F := Ideal) .f32 (x1 (ix2 q r)) * x2 (ix2 q (0 : Fin 1))) := by
  unfold k0_pay2
  rw [shapeCast_self, addf_apply, matmul_zero_apply]
  refine congrArg (acc (ix2 p q) + ·) (Finset.sum_congr rfl fun r _ => ?_)
  rw [truncf_apply, truncf_apply, shapeCast_self, mulf_apply, sitofp_apply, shapeCast_self,
    Cert.Lib.Keepdims.broadcastTo_a1_ab_apply]

/-- The output entry at `(p, q)`: the accumulator there plus the bias of column `q`. -/
theorem pay3_apply (v19 : Vec Ideal S512x512 .f32) (v20 : Vec Ideal S1x512 .f32) (p q : Fin 512) :
    k0_pay3 (F := Ideal) v19 v20 (ix2 p q) = v19 (ix2 p q) + v20 (ix2 (0 : Fin 1) q) := by
  unfold k0_pay3
  rw [addf_apply, shapeCast_self, broadcastTo_1b_ab_apply]

end Cert.KernelIdeal.Payload
end
-- ==== Proof.Accum.lean ====
import proofs.«182016_j59012850647279_1_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws
import proofs.«182016_j59012850647279_1_alg».proof.Proof.Pieces
import proofs.«182016_j59012850647279_1_alg».proof.Proof.Payload
set_option maxRecDepth 16384

noncomputable section

open Idealize.ShloMosaic Idealize.ShloMosaic.TcCoe Idealize.SL.Sem
open Idealize.ShloMosaic.Pipeline (Dat)

/-!
  The accumulator across a reduction, and the block written back at its end.

  The grid is 16 × 8 × 4 and is walked with the last coordinate fastest, so point number `t` has reduction step
  `t mod 4` and the four points `4u, 4u+1, 4u+2, 4u+3` are one output block's whole reduction. The accumulator is reset
  at step 0 and updated at every step, so after point `t` it is the fold over the points `4⌊t/4⌋ … t`: the zero block,
  with one addend per point added to it in turn. Point `n`'s addend at `(p, q)` is its blocks' contribution

      Σ_{r < 1024} x_n(p, r) · ( float(code_n(q, r)) · scale_n(q) ),

  `x_n`, `code_n`, `scale_n` being the blocks the windows hold at point `n`. Hence after the last step the
  accumulator is `0 + Σ_{s < 4} addend(4u + s)`, and the block the output window writes back there is that plus the
  point's bias row.
-/
namespace Cert.KernelIdeal.Accum
open Cert.KernelIdeal Cert.KernelIdeal.Gen Idealize.ShloMosaic.ValueIdx Idealize.ShloMosaic.Pipeline

variable (m : (ℓ : Loc nD τ sig) → Buf (Elt Ideal) ℓ)

/-- The four input blocks at a point, at their literal shapes. -/
abbrev xB (c : Dev nD) (t : Fin cfg0.N) : Vec Ideal S512x1024 .f32 := iblk m c 0 t
abbrev codeB (c : Dev nD) (t : Fin cfg0.N) : Vec Ideal S512x1024 .i32 := iblk m c 1 t
abbrev scaleB (c : Dev nD) (t : Fin cfg0.N) : Vec Ideal S512x1 .f32 := iblk m c 2 t
abbrev biasB (c : Dev nD) (t : Fin cfg0.N) : Vec Ideal S1x512 .f32 := iblk m c 3 t

/-- The accumulator after point `n`. -/
def scratch (c : Dev nD) (n : ℕ) (h : n < cfg0.N) : Vec Ideal S512x512 .f32 := (outsAt0 m c n h).2

/-- A first step's accumulator, from the point's blocks. -/
def first (c : Dev nD) (n : ℕ) (h : n < cfg0.N) : Vec Ideal S512x512 .f32 :=
  k0_pay2 (F := Ideal) (xB m c ⟨n, h⟩) (codeB m c ⟨n, h⟩) (scaleB m c ⟨n, h⟩) (k0_pay1 (F := Ideal))

/-- A later step's accumulator, from the point's blocks and what the step before left. -/
def next (c : Dev nD) (n : ℕ) (h : n < cfg0.N) (acc : Vec Ideal S512x512 .f32) : Vec Ideal S512x512 .f32 :=
  k0_pay2 (F := Ideal) (xB m c ⟨n, h⟩) (codeB m c ⟨n, h⟩) (scaleB m c ⟨n, h⟩) acc

/-- At a first step the accumulator is the reset value updated once. -/
theorem scratch_first_at (c : Dev nD) (t : Fin cfg0.N) (h0 : t.val % 4 = 0) :
    scratch m c t.val t.isLt = first m c t.val t.isLt := by
  unfold scratch first
  rw [outsAt0_A m c t h0]
  dsimp only
  exact Pieces.sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)

theorem scratch_first (c : Dev nD) (n : ℕ) (h : n < cfg0.N) (h0 : n % 4 = 0) : scratch m c n h = first m c n h :=
  scratch_first_at m c ⟨n, h⟩ h0

/-- At a later step it is the step before's, updated. -/
theorem scratch_next_at (c : Dev nD) (t : Fin cfg0.N) (h0 : ¬t.val % 4 = 0) :
    scratch m c t.val t.isLt
      = next m c t.val t.isLt (scratch m c (t.val - 1) (Nat.lt_of_le_of_lt (Nat.sub_le _ _) t.isLt)) := by
  unfold scratch next
  rw [outsAt0_B m c t h0]
  dsimp only
  exact Pieces.sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) (iblk m c 0 t) (iblk m c 1 t) (iblk m c 2 t) (iblk m c 3 t)
    (outsAt0 m c (t.val - 1) (Nat.lt_of_le_of_lt (Nat.sub_le _ _) t.isLt)).2

theorem scratch_next (c : Dev nD) (n : ℕ) (h : n + 1 < cfg0.N) (h0 : ¬(n + 1) % 4 = 0) :
    scratch m c (n + 1) h = next m c (n + 1) h (scratch m c n (Nat.lt_of_succ_lt h)) :=
  scratch_next_at m c ⟨n + 1, h⟩ h0

/-- The accumulator after point `t` is the fold over its reduction's points up to `t`. -/
theorem scratch_fold (c : Dev nD) (t : ℕ) (ht : t < cfg0.N) (h' : 4 * (t / 4) + t % 4 < cfg0.N) :
    scratch m c t ht = accAt (first m c) (next m c) (4 * (t / 4)) (t % 4) h' :=
  eq_accAt_of_mod (scratch m c) 4 (first m c) (next m c) (scratch_first m c) (scratch_next m c) (by decide) t ht h'

/-- Point `n`'s addend at `(p, q)` (nothing past the grid). -/
def addend (c : Dev nD) (n : ℕ) (p q : Fin 512) : EReal :=
  if h : n < cfg0.N then
    ∑ r : Fin 1024, xB m c ⟨n, h⟩ (ix2 p r)
      * (FloatOps.sitofp (F := Ideal) .f32 (codeB m c ⟨n, h⟩ (ix2 q r)) * scaleB m c ⟨n, h⟩ (ix2 q (0 : Fin 1)))
  else 0

/-- An update adds the point's addend, entry by entry. -/
theorem next_apply (c : Dev nD) (n : ℕ) (h : n < cfg0.N) (acc : Vec Ideal S512x512 .f32) (j : S512x512.Idx) :
    next m c n h acc j = acc j + addend m c n (j 0) (j 1) := by
  obtain ⟨p, q, rfl⟩ : ∃ (p : Fin 512) (q : Fin 512), j = ix2 p q := ⟨j 0, j 1, eq_ix2 j⟩
  show _ = acc (ix2 p q) + addend m c n p q
  unfold addend next
  rw [dif_pos h]
  exact Payload.pay2_apply _ _ _ acc p q

/-- A first step leaves zero plus the point's addend. -/
theorem first_apply (c : Dev nD) (n : ℕ) (h : n < cfg0.N) (j : S512x512.Idx) :
    first m c n h j = (0 : EReal) + addend m c n (j 0) (j 1) := by
  show next m c n h (k0_pay1 (F := Ideal)) j = _
  rw [next_apply, Payload.pay1_apply]

/-- After the last step of a reduction the accumulator is zero plus the four points' addends. -/
theorem scratch_last (c : Dev nD) (t : ℕ) (ht : t < cfg0.N) (h3 : t % 4 = 3) (j : S512x512.Idx) :
    scratch m c t ht j = (0 : EReal) + ∑ s ∈ Finset.range 4, addend m c (4 * (t / 4) + s) (j 0) (j 1) := by
  have h' : 4 * (t / 4) + t % 4 < cfg0.N := by rw [Nat.div_add_mod]; exact ht
  rw [scratch_fold m c t ht h']
  have key := accAt_add_apply (first m c) (next m c) (fun _ => (0 : EReal)) (fun n j => addend m c n (j 0) (j 1)) (4 * (t / 4)) 3
    (fun h i => first_apply m c _ h i) (fun n h acc i _ _ => next_apply m c n h acc i) (t % 4) (by omega) h' j
  rw [key, h3]

/-- What the output's staging buffer holds after ANY point: the accumulator there plus the point's bias row. -/
theorem out_eq (c : Dev nD) (t : Fin cfg0.N) :
    (outsAt0 m c t.val t.isLt).1 = k0_pay3 (F := Ideal) (scratch m c t.val t.isLt) (biasB m c t) := by
  unfold scratch
  by_cases h0 : t.val % 4 = 0
  · rw [outsAt0_A m c t h0]
    dsimp only
    rw [Pieces.sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)]
    exact Pieces.out_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)
  · rw [outsAt0_B m c t h0]
    dsimp only
    rw [Pieces.sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) (iblk m c 0 t) (iblk m c 1 t) (iblk m c 2 t) (iblk m c 3 t)
      (outsAt0 m c (t.val - 1) (Nat.lt_of_le_of_lt (Nat.sub_le _ _) t.isLt)).2]
    exact Pieces.out_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) (iblk m c 0 t) (iblk m c 1 t) (iblk m c 2 t) (iblk m c 3 t)
      (outsAt0 m c (t.val - 1) (Nat.lt_of_le_of_lt (Nat.sub_le _ _) t.isLt)).2

/-- The block written back at the end of a reduction, entry by entry. -/
theorem out_last (c : Dev nD) (t : Fin cfg0.N) (h3 : t.val % 4 = 3) (p q : Fin 512) :
    (outsAt0 m c t.val t.isLt).1 (ix2 p q)
      = ((0 : EReal) + ∑ s ∈ Finset.range 4, addend m c (4 * (t.val / 4) + s) p q) + biasB m c t (ix2 (0 : Fin 1) q) := by
  rw [out_eq, Payload.pay3_apply, scratch_last m c t.val t.isLt h3]

end Cert.KernelIdeal.Accum
end
-- ==== Proof.BlockSum.lean ====
import Mathlib.Algebra.BigOperators.Fin
import Mathlib.Algebra.BigOperators.Group.Finset.Basic
import Mathlib.Logic.Equiv.Fin.Basic

/-!
  Regrouping a long sum into consecutive blocks.

  A sum over `a · b` consecutive indices is the sum, over the `a` blocks of length `b`, of each block's sum: index
  `l` is `s · b + r` for exactly one block `s < a` and one offset `r < b`. This holds in any commutative additive
  monoid, since it only regroups and reorders the terms — no subtraction, no cancellation, so it is also true of sums of
  extended reals that meet infinities. It is stated with the blocks ranged over by the natural numbers below `a`
  (a block number past the end contributes nothing), the form in which a running total that adds one block per step
  presents them.
-/

namespace Cert.BlockSum

open Finset

variable {M : Type*} [AddCommMonoid M]

/-- The sum of `f` over `Fin (a * b)` is the sum over blocks `s < a` of the sums over offsets `r < b` of
    `f (s * b + r)`. -/
theorem sum_blocks (a b : ℕ) (f : Fin (a * b) → M)
    (g : ℕ → M)
    (hg : ∀ (s : ℕ) (hs : s < a), g s = ∑ r : Fin b, f ⟨s * b + r.val, by
      have hr := r.isLt
      have h1 : (s + 1) * b ≤ a * b := Nat.mul_le_mul_right b hs
      rw [Nat.add_mul, Nat.one_mul] at h1
      omega⟩) :
    ∑ s ∈ range a, g s = ∑ l : Fin (a * b), f l := by
  rw [Finset.sum_range, ← (finProdFinEquiv (m := a) (n := b)).sum_comp f, Fintype.sum_prod_type]
  refine Finset.sum_congr rfl fun s _ => ?_
  rw [hg s.val s.isLt]
  refine Finset.sum_congr rfl fun r _ => congrArg f (Fin.ext ?_)
  show s.val * b + r.val = r.val + b * s.val
  rw [Nat.mul_comm, Nat.add_comm]

end Cert.BlockSum
-- ==== Proof.Spec.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«182016_j59012850647279_1_alg».proof.Proof.LibKeepdims

/-!
  The function both programs compute, over the extended reals.

  With `x` the activations [4, 2048, 4096], `code` the integer weight codes [4096, 4096] (output channel × input
  feature), `scale` and `bias` per output channel [4096], the result at batch `b`, position `s`, output channel `o` is

      Σ_{i < 4096}  x(b, s, i) · ( float(code(o, i)) · scale(o) )   +   bias(o):

  the weight is dequantized — the code turned into a real number and multiplied by its channel's scale — and the
  linear layer applied. `linear` states it on the three-axis arrays the programs take and return.

  The kernel works on two-axis arrays: the activations laid out as [8192, 4096] rows (row `b · 2048 + s`), the scales
  as a [4096, 1] column, the biases as a [1, 4096] row, and its result [8192, 4096] is laid back out as [4, 2048, 4096].
  `linear2` is the same sum on those arrays, and `reshape_linear2` says that laying the arguments out, applying
  `linear2` and laying the result back is `linear`: a re-layout keeps every entry's row-major position, and
  `(b · 2048 + s) · 4096 + i = (b · 2048 + s) · 4096 + i` on both sides.
-/

noncomputable section

namespace Cert.Spec

open Idealize.ShloMosaic Idealize.ShloMosaic.ValueIdx

/-- The linear layer with dequantized weights, on the programs' own array shapes. -/
def linear (x : Vec Ideal ⟨3, ![4, 2048, 4096]⟩ .f32) (code : Vec Ideal ⟨2, ![4096, 4096]⟩ .i32)
    (scale bias : Vec Ideal ⟨1, ![4096]⟩ .f32) : Vec Ideal ⟨3, ![4, 2048, 4096]⟩ .f32 := fun i =>
  (∑ l : Fin 4096, x (ix3 (i 0) (i 1) l) * (FloatOps.sitofp (F := Ideal) .f32 (code (ix2 (i 2) l)) * scale (ix1 (i 2))))
    + bias (ix1 (i 2))

/-- The same on rows: activations [8192, 4096], scales a column, biases a row. -/
def linear2 (x : Vec Ideal ⟨2, ![8192, 4096]⟩ .f32) (code : Vec Ideal ⟨2, ![4096, 4096]⟩ .i32)
    (scale : Vec Ideal ⟨2, ![4096, 1]⟩ .f32) (bias : Vec Ideal ⟨2, ![1, 4096]⟩ .f32) : Vec Ideal ⟨2, ![8192, 4096]⟩ .f32 := fun j =>
  (∑ l : Fin 4096, x (ix2 (j 0) l) * (FloatOps.sitofp (F := Ideal) .f32 (code (ix2 (j 1) l)) * scale (ix2 (j 1) (0 : Fin 1))))
    + bias (ix2 (0 : Fin 1) (j 1))

/-- Row `b · 2048 + s` of the [8192, 4096] layout. -/
abbrev row (b : Fin 4) (s : Fin 2048) : Fin 8192 := ⟨b.val * 2048 + s.val, by have := b.isLt; have := s.isLt; omega⟩

/-- A three-axis array laid out as rows reads, at `(b · 2048 + s, i)`, its entry `(b, s, i)`. -/
theorem rows_apply {α : Type} (x : (⟨3, ![4, 2048, 4096]⟩ : Shape).Idx → α)
    (h : (⟨3, ![4, 2048, 4096]⟩ : Shape).ShapeCasts ⟨2, ![8192, 4096]⟩) (b : Fin 4) (s : Fin 2048) (i : Fin 4096) :
    shapeCast ⟨2, ![8192, 4096]⟩ x h (ix2 (row b s) i) = x (ix3 b s i) :=
  shapeCast_apply x h _ _ (by
    rw [Shape.rowMajor_val_two, Shape.rowMajor_val_three]
    show (b.val * 2048 + s.val) * 4096 + i.val = (b.val * 2048 + s.val) * 4096 + i.val
    rfl)

/-- Rows laid back out as three axes read, at `(b, s, i)`, the entry `(b · 2048 + s, i)`. -/
theorem unrows_apply {α : Type} (y : (⟨2, ![8192, 4096]⟩ : Shape).Idx → α)
    (h : (⟨2, ![8192, 4096]⟩ : Shape).ShapeCasts ⟨3, ![4, 2048, 4096]⟩) (b : Fin 4) (s : Fin 2048) (i : Fin 4096) :
    shapeCast ⟨3, ![4, 2048, 4096]⟩ y h (ix3 b s i) = y (ix2 (row b s) i) :=
  shapeCast_apply y h _ _ (by
    rw [Shape.rowMajor_val_two, Shape.rowMajor_val_three]
    show (b.val * 2048 + s.val) * 4096 + i.val = (b.val * 2048 + s.val) * 4096 + i.val
    rfl)

/-- Laying the arguments out as rows, a column and a row, applying the row form and laying the result back out is the
    linear layer on the three-axis arrays. -/
theorem reshape_linear2 (x : Vec Ideal ⟨3, ![4, 2048, 4096]⟩ .f32) (code : Vec Ideal ⟨2, ![4096, 4096]⟩ .i32)
    (scale bias : Vec Ideal ⟨1, ![4096]⟩ .f32)
    (h0 : (⟨3, ![4, 2048, 4096]⟩ : Shape).ShapeCasts ⟨2, ![8192, 4096]⟩)
    (h1 : (⟨1, ![4096]⟩ : Shape).ShapeCasts ⟨2, ![4096, 1]⟩) (h2 : (⟨1, ![4096]⟩ : Shape).ShapeCasts ⟨2, ![1, 4096]⟩)
    (h3 : (⟨2, ![8192, 4096]⟩ : Shape).ShapeCasts ⟨3, ![4, 2048, 4096]⟩) :
    shapeCast ⟨3, ![4, 2048, 4096]⟩
        (linear2 (shapeCast ⟨2, ![8192, 4096]⟩ x h0) code (shapeCast ⟨2, ![4096, 1]⟩ scale h1) (shapeCast ⟨2, ![1, 4096]⟩ bias h2)) h3
      = linear x code scale bias := by
  funext i
  obtain ⟨b, s, o, rfl⟩ : ∃ (b : Fin 4) (s : Fin 2048) (o : Fin 4096), i = ix3 b s o := ⟨i 0, i 1, i 2, eq_ix3 i⟩
  rw [unrows_apply]
  unfold linear2 linear
  show (∑ l : Fin 4096, shapeCast ⟨2, ![8192, 4096]⟩ x h0 (ix2 (row b s) l)
        * (FloatOps.sitofp (F := Ideal) .f32 (code (ix2 o l)) * shapeCast ⟨2, ![4096, 1]⟩ scale h1 (ix2 o (0 : Fin 1))))
      + shapeCast ⟨2, ![1, 4096]⟩ bias h2 (ix2 (0 : Fin 1) o)
    = (∑ l : Fin 4096, x (ix3 b s l) * (FloatOps.sitofp (F := Ideal) .f32 (code (ix2 o l)) * scale (ix1 o))) + bias (ix1 o)
  rw [Cert.Lib.Keepdims.shapeCast_a_a1_apply, shapeCast_a_1a_apply]
  exact congrArg (· + bias (ix1 o)) (Finset.sum_congr rfl fun l _ => by rw [rows_apply])

end Cert.Spec

end
-- ==== Proof.Blocks.lean ====
import proofs.«182016_j59012850647279_1_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws
import proofs.«182016_j59012850647279_1_alg».proof.Proof.Accum
import proofs.«182016_j59012850647279_1_alg».proof.Proof.BlockSum
import proofs.«182016_j59012850647279_1_alg».proof.Proof.Spec
set_option maxRecDepth 16384

noncomputable section

open Idealize.ShloMosaic Idealize.ShloMosaic.TcCoe Idealize.SL.Sem
open Idealize.ShloMosaic.Pipeline (Dat)

/-!
  From the blocks written back to the whole result array.

  Point number `t` of the 16 × 8 × 4 grid (last coordinate fastest) has row tile `⌊t/32⌋`, column tile `⌊t/4⌋ mod 8`
  and reduction step `t mod 4`. At that point the activations' window holds rows `512·⌊t/32⌋ …` and inner positions
  `1024·(t mod 4) …`; the codes' window holds output channels `512·(⌊t/4⌋ mod 8) …` and the same inner positions; the
  scale column and the bias row hold those channels; the output window is block `(⌊t/32⌋, ⌊t/4⌋ mod 8)`, written back
  only after the reduction's last step (`t mod 4 = 3`).

  So the block written back at such a point, at `(p, q)`, is zero plus the four steps' addends plus the bias: the
  four addends are the inner positions `0…1023`, `1024…2047`, `2048…3071`, `3072…4095` of row `512·⌊t/32⌋ + p` against
  channel `512·(⌊t/4⌋ mod 8) + q`, and regrouping them is the one sum over all 4096 positions — the row form of the linear
  layer at that entry. The 128 blocks tile the [8192, 4096] array (entry `(r, o)` lies in the block of the point
  `((⌊r/512⌋ · 8 + ⌊o/512⌋) · 4 + 3`), so the array ends holding the row form everywhere.
-/
namespace Cert.KernelIdeal.Blocks
open Cert.KernelIdeal Cert.KernelIdeal.Gen Idealize.ShloMosaic.ValueIdx Idealize.ShloMosaic.Pipeline

variable (m : (ℓ : Loc nD τ sig) → Buf (Elt Ideal) ℓ)

/-- Where each window's block sits at point `t`, decided over the 512 points. -/
theorem idx_facts : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 4 % 8 ∧ win0_2.index t (1 : Fin 2) = 0
    ∧ win0_3.index t (0 : Fin 2) = 0 ∧ win0_3.index t (1 : Fin 2) = t.val / 4 % 8
    ∧ win0_4.index t (0 : Fin 2) = t.val / 32 ∧ win0_4.index t (1 : Fin 2) = t.val / 4 % 8 :=
  (by decide +kernel : ∀ t : Fin grid0.N, _)

theorem lt_N (t : Fin cfg0.N) : t.val < 512 := by have h := t.isLt; have e : cfg0.N = 512 := N_0; omega

/-- The four arrays as the kernel's region finds them, at their literal shapes. -/
abbrev rowsV (c : Dev nD) : Vec Ideal S8192x4096 .f32 := V m c main_v0
abbrev codeV (c : Dev nD) : Vec Ideal S4096x4096 .i32 := V m c main_arg1
abbrev colV (c : Dev nD) : Vec Ideal S4096x1 .f32 := V m c main_v1
abbrev rowV (c : Dev nD) : Vec Ideal S1x4096 .f32 := V m c main_v2

/-- The activations' block at point `t`, entry `(p, r)`. -/
theorem x_blk (c : Dev nD) (t : Fin cfg0.N) (p : Fin 512) (r : Fin 1024) (R : Fin 8192) (K : Fin 4096)
    (hR : R.val = t.val / 32 * 512 + p.val) (hK : K.val = t.val % 4 * 1024 + r.val) :
    Accum.xB m c t (ix2 p r) = rowsV m c (ix2 R K) := by
  obtain ⟨e0, e1, -⟩ := idx_facts t
  unfold Accum.xB iblk
  rw [View.read_apply]
  show V m c main_v0 (((cfg0.win 0).blk t).view.emb (ix2 p r)) = V m c main_v0 (ix2 R K)
  refine congrArg (V m c main_v0) (funext fun a => Fin.ext ?_)
  match a with
  | ⟨0, _⟩ => show win0_0.index t (0 : Fin 2) * 512 + 1 * p.val = R.val; rw [e0, hR]; omega
  | ⟨1, _⟩ => show win0_0.index t (1 : Fin 2) * 1024 + 1 * r.val = K.val; rw [e1, hK]; omega

/-- The codes' block at point `t`, entry `(q, r)`. -/
theorem code_blk (c : Dev nD) (t : Fin cfg0.N) (q : Fin 512) (r : Fin 1024) (O : Fin 4096) (K : Fin 4096)
    (hO : O.val = t.val / 4 % 8 * 512 + q.val) (hK : K.val = t.val % 4 * 1024 + r.val) :
    Accum.codeB m c t (ix2 q r) = codeV m c (ix2 O K) := by
  obtain ⟨-, -, e0, e1, -⟩ := idx_facts t
  unfold Accum.codeB iblk
  rw [View.read_apply]
  show V m c main_arg1 (((cfg0.win 1).blk t).view.emb (ix2 q r)) = V m c main_arg1 (ix2 O K)
  refine congrArg (V m c main_arg1) (funext fun a => Fin.ext ?_)
  match a with
  | ⟨0, _⟩ => show win0_1.index t (0 : Fin 2) * 512 + 1 * q.val = O.val; rw [e0, hO]; omega
  | ⟨1, _⟩ => show win0_1.index t (1 : Fin 2) * 1024 + 1 * r.val = K.val; rw [e1, hK]; omega

/-- The scale column's block at point `t`, entry `(q, 0)`. -/
theorem scale_blk (c : Dev nD) (t : Fin cfg0.N) (q : Fin 512) (O : Fin 4096)
    (hO : O.val = t.val / 4 % 8 * 512 + q.val) :
    Accum.scaleB m c t (ix2 q (0 : Fin 1)) = colV m c (ix2 O (0 : Fin 1)) := by
  obtain ⟨-, -, -, -, e0, e1, -⟩ := idx_facts t
  unfold Accum.scaleB iblk
  rw [View.read_apply]
  show V m c main_v1 (((cfg0.win 2).blk t).view.emb (ix2 q (0 : Fin 1))) = V m c main_v1 (ix2 O (0 : Fin 1))
  refine congrArg (V m c main_v1) (funext fun a => Fin.ext ?_)
  match a with
  | ⟨0, _⟩ => show win0_2.index t (0 : Fin 2) * 512 + 1 * q.val = O.val; rw [e0, hO]; omega
  | ⟨1, _⟩ => show win0_2.index t (1 : Fin 2) * 1 + 1 * (0 : Fin 1).val = (0 : Fin 1).val; rw [e1]; rfl

/-- The bias row's block at point `t`, entry `(0, q)`. -/
theorem bias_blk (c : Dev nD) (t : Fin cfg0.N) (q : Fin 512) (O : Fin 4096)
    (hO : O.val = t.val / 4 % 8 * 512 + q.val) :
    Accum.biasB m c t (ix2 (0 : Fin 1) q) = rowV m c (ix2 (0 : Fin 1) O) := by
  obtain ⟨-, -, -, -, -, -, e0, e1, -⟩ := idx_facts t
  unfold Accum.biasB iblk
  rw [View.read_apply]
  show V m c main_v2 (((cfg0.win 3).blk t).view.emb (ix2 (0 : Fin 1) q)) = V m c main_v2 (ix2 (0 : Fin 1) O)
  refine congrArg (V m c main_v2) (funext fun a => Fin.ext ?_)
  match a with
  | ⟨0, _⟩ => show win0_3.index t (0 : Fin 2) * 1 + 1 * (0 : Fin 1).val = (0 : Fin 1).val; rw [e0]; rfl
  | ⟨1, _⟩ => show win0_3.index t (1 : Fin 2) * 512 + 1 * q.val = O.val; rw [e1, hO]; omega

/-- The row form of the linear layer on the arrays as the kernel's region finds them. -/
abbrev rowForm (c : Dev nD) : Vec Ideal S8192x4096 .f32 :=
  Cert.Spec.linear2 (rowsV m c) (codeV m c) (colV m c) (rowV m c)

/-- Step `s` of a reduction contributes the inner positions `1024·s …`: the addend of the point `4u + s` of the
    reduction that ends at `t`, at `(p, q)`, is that stretch of the row form's sum for row `R`, channel `O`. -/
theorem addend_eq (c : Dev nD) (t : Fin cfg0.N) (h3 : t.val % 4 = 3) (p q : Fin 512) (R : Fin 8192) (O : Fin 4096)
    (hR : R.val = t.val / 32 * 512 + p.val) (hO : O.val = t.val / 4 % 8 * 512 + q.val) (s : ℕ) (hs : s < 4) :
    Accum.addend m c (4 * (t.val / 4) + s) p q
      = ∑ r : Fin 1024, rowsV m c (ix2 R ⟨s * 1024 + r.val, by have := r.isLt; omega⟩)
          * (FloatOps.sitofp (F := Ideal) .f32 (codeV m c (ix2 O ⟨s * 1024 + r.val, by have := r.isLt; omega⟩))
              * colV m c (ix2 O (0 : Fin 1))) := by
  have htN := lt_N t
  have hn : 4 * (t.val / 4) + s < cfg0.N := by have e : cfg0.N = 512 := N_0; omega
  unfold Accum.addend
  rw [dif_pos hn]
  refine Finset.sum_congr rfl fun r _ => ?_
  have hr := r.isLt
  rw [x_blk m c ⟨4 * (t.val / 4) + s, hn⟩ p r R ⟨s * 1024 + r.val, by omega⟩ (by show R.val = (4 * (t.val / 4) + s) / 32 * 512 + p.val; omega) (by show s * 1024 + r.val = (4 * (t.val / 4) + s) % 4 * 1024 + r.val; omega),
    code_blk m c ⟨4 * (t.val / 4) + s, hn⟩ q r O ⟨s * 1024 + r.val, by omega⟩ (by show O.val = (4 * (t.val / 4) + s) / 4 % 8 * 512 + q.val; omega) (by show s * 1024 + r.val = (4 * (t.val / 4) + s) % 4 * 1024 + r.val; omega),
    scale_blk m c ⟨4 * (t.val / 4) + s, hn⟩ q O (by show O.val = (4 * (t.val / 4) + s) / 4 % 8 * 512 + q.val; omega)]

/-- The block written back at the end of a reduction is the row form's block there, entry by entry. -/
theorem out_entry (c : Dev nD) (t : Fin cfg0.N) (h3 : t.val % 4 = 3) (p q : Fin 512) (R : Fin 8192) (O : Fin 4096)
    (hR : R.val = t.val / 32 * 512 + p.val) (hO : O.val = t.val / 4 % 8 * 512 + q.val) :
    (outsAt0 m c t.val t.isLt).1 (ix2 p q) = rowForm m c (ix2 R O) := by
  rw [Accum.out_last m c t h3, zero_add, bias_blk m c t q O hO]
  unfold rowForm Cert.Spec.linear2
  refine congrArg (· + rowV m c (ix2 (0 : Fin 1) O)) ?_
  exact Cert.BlockSum.sum_blocks 4 1024
    (fun l : Fin 4096 => rowsV m c (ix2 R l) * (FloatOps.sitofp (F := Ideal) .f32 (codeV m c (ix2 O l)) * colV m c (ix2 O (0 : Fin 1))))
    (fun s => Accum.addend m c (4 * (t.val / 4) + s) p q)
    (fun s hs => addend_eq m c t h3 p q R O hR hO s hs)

/-- WHAT A FLUSHING POINT WRITES BACK is its block of the row form. -/
theorem flushed_eq (c : Dev nD) (t : Fin cfg0.N) (hf : (cfg0.win 4).flush t = true) :
    (dats m 0 c).flushed 4 t = ((cfg0.win 4).blk t).view.read (Elt Ideal) (rowForm m c) := by
  have h3 : t.val % 4 = 3 := (flush0_4 t).mp hf
  have htN := lt_N t
  obtain ⟨-, -, -, -, -, -, -, -, e0, e1⟩ := idx_facts t
  show (cfg0.win 4).cut (grid0.coords t) ((dats m 0 c).after 4 t) = _
  rw [after0_4]
  funext j
  have hj0 : (j 0).val < 512 := (j 0).isLt
  have hj1 : (j 1).val < 512 := (j 1).isLt
  rw [View.read_apply]
  show (outsAt0 m c t.val t.isLt).1 ((cfg0.win 4).xinj (grid0.coords t) j) = rowForm m c (((cfg0.win 4).blk t).view.emb j)
  have hx : (cfg0.win 4).xinj (grid0.coords t) j = ix2 (⟨(j 0).val, hj0⟩ : Fin 512) (⟨(j 1).val, hj1⟩ : Fin 512) :=
    funext fun a => Fin.ext (by
      match a with
      | ⟨0, _⟩ => rfl
      | ⟨1, _⟩ => rfl)
  have he : ((cfg0.win 4).blk t).view.emb j
      = ix2 (⟨t.val / 32 * 512 + (j 0).val, by omega⟩ : Fin 8192) (⟨t.val / 4 % 8 * 512 + (j 1).val, by omega⟩ : Fin 4096) :=
    funext fun a => Fin.ext (by
      match a with
      | ⟨0, _⟩ => show win0_4.index t (0 : Fin 2) * 512 + 1 * (j 0).val = t.val / 32 * 512 + (j 0).val; rw [e0]; omega
      | ⟨1, _⟩ => show win0_4.index t (1 : Fin 2) * 512 + 1 * (j 1).val = t.val / 4 % 8 * 512 + (j 1).val; rw [e1]; omega)
  rw [hx, he]
  exact out_entry m c t h3 _ _ _ _ rfl rfl

/-- An index of the array is in point `t`'s block iff each coordinate is in the block's range on its axis. -/
theorem mem_blk (t : Fin cfg0.N) (i : S8192x4096.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v3).slice (win0_4.rect t)).set ↔ _
  rw [View.set_slice_whole, Rect.mem_set_unit]
  exact Iff.rfl

/-- Every entry of the array is in the block of some flushing point. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 512 := N_0
  let t : Fin cfg0.N := ⟨((i 0).val / 512 * 8 + (i 1).val / 512) * 4 + 3, by omega⟩
  have htv : t.val = ((i 0).val / 512 * 8 + (i 1).val / 512) * 4 + 3 := rfl
  obtain ⟨-, -, -, -, -, -, -, -, e0, e1⟩ := idx_facts t
  refine ⟨t, (flush0_4 t).mpr (by rw [htv]; omega), ?_⟩
  rw [mem_blk]
  intro a
  match a with
  | ⟨0, _⟩ => show win0_4.index t (0 : Fin 2) * 512 ≤ (i 0).val ∧ (i 0).val < win0_4.index t (0 : Fin 2) * 512 + 512; rw [e0, htv]; omega
  | ⟨1, _⟩ => show win0_4.index t (1 : Fin 2) * 512 ≤ (i 1).val ∧ (i 1).val < win0_4.index t (1 : Fin 2) * 512 + 512; rw [e1, htv]; omega

/-- THE RESULT ARRAY of the kernel's region after the run: the row form of the linear layer. -/
theorem final (c : Dev nD) : (dats m 0 c).arrAt 4 cfg0.N = rowForm m c :=
  (dats m 0 c).arrAt_eq_of_cover 4 (rowForm m c) (flushed_eq m c) cover

end Cert.KernelIdeal.Blocks
end
-- ==== Proof.KernelRun.lean ====
import proofs.«182016_j59012850647279_1_alg».proof.Proof.Gen.KernelIdeal.Frame
import Idealize.ShloMosaic.Lib.Pipeline.Value
import Idealize.ShloMosaic.Lib.ValueIdx
import Idealize.ShloMosaic.Lib.Tactic
import Idealize.ShloMosaic.Lib.StableHlo.Run
import proofs.«182016_j59012850647279_1_alg».proof.Proof.Blocks
import proofs.«182016_j59012850647279_1_alg».proof.Proof.Spec
set_option maxRecDepth 16384

noncomputable section

open Idealize.ShloMosaic Idealize.ShloMosaic.TcCoe Idealize.SL.Sem
open Idealize.ShloMosaic.Pipeline (Dat)

/-!
  The kernel program's run, read as the linear layer.

  Around its one kernel region the program only re-lays arrays out: before it, the activations as [8192, 4096] rows,
  the scales as a [4096, 1] column, the biases as a [1, 4096] row (the codes are passed as they are); after it, the
  [8192, 4096] result as [4, 2048, 4096]. The region leaves its result array at the row form of the linear layer on the
  arrays it was handed, so the program's result is the linear layer of its four arguments: re-laying the arguments
  out, applying the row form, and laying the result back is the three-axis formula.
-/
namespace Cert.KernelIdeal.Run
open Cert.KernelIdeal Cert.KernelIdeal.Gen Idealize.ShloMosaic.ValueIdx Idealize.ShloMosaic.Pipeline

variable (m : (ℓ : Loc nD τ sig) → Buf (Elt Ideal) ℓ) (ρ : Dev nD → PrngReg)

/-- The region finds the activations laid out as rows, -/
theorem V_rows (c : Dev nD) :
    (V m c main_v0 : S8192x4096.Idx → EReal)
      = shapeCast S8192x4096 (m ((c : Thread nD τ).loc main_arg0)) Facts₀.shapeCasts_S4x2048x4096_S8192x4096 := by
  show StableHlo.after hostOps0 (fun b => m (c, b)) (Proc.devRef .tc main_v0) = _
  after_results
  rfl

/-- the scales as a column, -/
theorem V_col (c : Dev nD) :
    (V m c main_v1 : S4096x1.Idx → EReal)
      = shapeCast S4096x1 (m ((c : Thread nD τ).loc main_arg2)) Facts₀.shapeCasts_S4096_S4096x1 := by
  show StableHlo.after hostOps0 (fun b => m (c, b)) (Proc.devRef .tc main_v1) = _
  after_results
  rfl

/-- and the biases as a row. -/
theorem V_row (c : Dev nD) :
    (V m c main_v2 : S1x4096.Idx → EReal)
      = shapeCast S1x4096 (m ((c : Thread nD τ).loc main_arg3)) Facts₀.shapeCasts_S4096_S1x4096 := by
  show StableHlo.after hostOps0 (fun b => m (c, b)) (Proc.devRef .tc main_v2) = _
  after_results
  rfl

/-- The program's result buffer after the run: the region's result array laid back out as three axes. -/
theorem tail_eq (c : Dev nD) :
    Pipeline.afterTail₀ cfgs (dats m) 0 (V0 m) [hostOps1] c main_v4
      = shapeCast S4x2048x4096 ((dats m 0 c).arrAt 4 cfg0.N) Facts₀.shapeCasts_S8192x4096_S4x2048x4096 := by
  unfold Pipeline.afterTail₀
  show StableHlo.after hostOps1 _ (Proc.devRef .tc main_v4) = _
  after_results
  exact congrArg (fun y => shapeCast S4x2048x4096 y Facts₀.shapeCasts_S8192x4096_S4x2048x4096)
    (Pipeline.withArrays_arr spec0 launch0.win.arr_inj c _ _ 4)

/-- So it is the linear layer of the four arguments. -/
theorem result_eq (c : Dev nD) :
    Pipeline.afterTail₀ cfgs (dats m) 0 (V0 m) [hostOps1] c main_v4
      = Cert.Spec.linear (m ((c : Thread nD τ).loc main_arg0)) (m ((c : Thread nD τ).loc main_arg1))
          (m ((c : Thread nD τ).loc main_arg2)) (m ((c : Thread nD τ).loc main_arg3)) := by
  rw [tail_eq, Blocks.final]
  unfold Blocks.rowForm Blocks.rowsV Blocks.codeV Blocks.colV Blocks.rowV
  rw [V_rows, V_col, V_row, V_main_arg1]
  exact Cert.Spec.reshape_linear2 _ _ _ _ _ _ _ _

/-- The run: every weakly fair execution terminates with the result at the linear layer of the arguments as launched,
    and the arguments unchanged. -/
theorem run : θ_run defs (onTc (τ := τ) (main (F := Ideal))) ⟨m, fun _ => 0, ρ⟩ fun r => ∀ c : Dev nD,
      r.2.mem ((c.tc : Thread nD τ).loc main_v4)
        = Cert.Spec.linear (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run
end
-- ==== Proof.RefSide.lean ====
import proofs.«182016_j59012850647279_1_alg».proof.Defs
import proofs.«182016_j59012850647279_1_alg».proof.Proof.Gen.ReferenceIdeal.Read
import proofs.«182016_j59012850647279_1_alg».proof.Proof.Spec
import Idealize.ShloMosaic.Lib.ValueIdx
import Idealize.ShloMosaic.Lib.Pipeline.Value
import Idealize.ShloMosaic.PureOps.Ideal.Laws

/-!
  The reference computes the linear layer with dequantized weights.

  Its eight host operations are, in order: the codes turned into floats; the scales broadcast along the input-feature
  axis (in two steps, through a [4096, 1] column); their entrywise product, the dequantized weight `w(o, i)`; the
  contraction of the activations' last axis with the weight's second axis, `Σ_i x(b, s, i) · w(o, i)`; the biases
  broadcast over batch and position (again in two steps); the sum. Read at an index `(b, s, o)` one operation at a
  time, every broadcast just forwards a coordinate, and what is left is the specification's formula word for word.
-/

noncomputable section

namespace Cert.ReferenceIdeal.RefSide

open Cert.ReferenceIdeal Cert.ReferenceIdeal.Read
open Idealize.ShloMosaic Idealize.ShloMosaic.TcCoe Idealize.SL.Sem Idealize.ShloMosaic.ValueIdx

/-- The dequantized weight at `(o, k)`: the code there as a float, times channel `o`'s scale. -/
theorem weight_apply (x1 : (⟨S4096x4096, .i32⟩ : BufTy).Contents (Elt Ideal)) (x2 : (⟨S4096, .f32⟩ : BufTy).Contents (Elt Ideal))
    (o k : Fin 4096) :
    val_main_v3 (F := Ideal) x1 x2 (ix2 o k) = FloatOps.sitofp (F := Ideal) .f32 (x1 (ix2 o k)) * x2 (ix1 o) := by
  have e : idx_main_v1 (idx_main_v2 (ix2 o k)) = ix1 o := funext fun a => Fin.ext (by
    match a with
    | ⟨0, _⟩ => rfl)
  rw [val_main_v3_apply, val_main_v0_apply, val_main_v2_apply, val_main_v1_apply, e]
  rfl

/-- The reference's result, as one function of its four arguments, is the specification. -/
theorem result_eq (x0 : (⟨S4x2048x4096, .f32⟩ : BufTy).Contents (Elt Ideal)) (x1 : (⟨S4096x4096, .i32⟩ : BufTy).Contents (Elt Ideal))
    (x2 x3 : (⟨S4096, .f32⟩ : BufTy).Contents (Elt Ideal)) :
    val_main_v7 (F := Ideal) x0 x1 x2 x3 = Cert.Spec.linear x0 x1 x2 x3 := by
  funext i
  obtain ⟨b, s, o, rfl⟩ : ∃ (b : Fin 4) (s : Fin 2048) (o : Fin 4096), i = ix3 b s o := ⟨i 0, i 1, i 2, eq_ix3 i⟩
  have e1 : ∀ k : Fin 4096, lidx_main_v4 (ix3 b s o) k = ix3 b s k := fun k => funext fun a => Fin.ext (by
    match a with
    | ⟨0, _⟩ => rfl
    | ⟨1, _⟩ => rfl
    | ⟨2, _⟩ => rfl)
  have e2 : ∀ k : Fin 4096, ridx_main_v4 (ix3 b s o) k = ix2 o k := fun k => funext fun a => Fin.ext (by
    match a with
    | ⟨0, _⟩ => rfl
    | ⟨1, _⟩ => rfl)
  have e3 : idx_main_v5 (idx_main_v6 (ix3 b s o)) = ix1 o := funext fun a => Fin.ext (by
    match a with
    | ⟨0, _⟩ => rfl)
  rw [val_main_v7_apply, val_main_v4_apply, val_main_v6_apply, val_main_v5_apply, e3]
  show (∑ k : Fin 4096, x0 (lidx_main_v4 (ix3 b s o) k) * val_main_v3 (F := Ideal) x1 x2 (ridx_main_v4 (ix3 b s o) k)) + x3 (ix1 o)
    = (∑ l : Fin 4096, x0 (ix3 b s l) * (FloatOps.sitofp (F := Ideal) .f32 (x1 (ix2 o l)) * x2 (ix1 o))) + x3 (ix1 o)
  refine congrArg (· + x3 (ix1 o)) (Finset.sum_congr rfl fun k _ => ?_)
  rw [e1, e2, weight_apply]

end Cert.ReferenceIdeal.RefSide

end
-- ==== Proof.lean ====
/-
  The kernel and its reference compute the same linear layer with dequantized weights.

  Both programs take activations `x` [4, 2048, 4096], integer weight codes [4096, 4096], and per-output-channel scales
  and biases [4096], and return [4, 2048, 4096]. Over the extended reals, with every float operation exact and every
  change of float format the identity, the reference's result at `(b, s, o)` is

      Σ_{i < 4096}  x(b, s, i) · ( float(code(o, i)) · scale(o) )   +   bias(o)                       (Proof/Spec.lean)

  read off its eight host operations one at a time (Proof/RefSide.lean).

  The kernel lays the activations out as 8192 rows and walks a 16 × 8 × 4 grid: a 512-row tile, a 512-channel tile, and
  four steps over the 4096 input features in stretches of 1024. Within a tile it keeps an accumulator block: zero at
  the first step, and each step adds that stretch's partial products `Σ_{r < 1024} x(row, 1024·k + r) · (float(code) · scale)`
  (Proof/Pieces.lean: what one run of the body leaves; Proof/Payload.lean: those values entry by entry;
  Proof/Accum.lean: the accumulator after the last step is zero plus the four stretches' sums). The block written back
  after the fourth step is the accumulator plus the bias row. The four stretches regroup into the one sum over all 4096
  features (Proof/BlockSum.lean) — a regrouping of a finite sum, valid for extended reals whatever infinities occur, so
  the inputs' finiteness is never used — and the 128 blocks tile the result (Proof/Blocks.lean). The re-layouts around
  the kernel region keep every entry's row-major position (Proof/KernelRun.lean), so the kernel program's result is the
  same formula.

  The three frame claims are the generated frame runs (for the reference, its generated run with the result dropped);
  the idealization rewrote nothing, so there is nothing to preserve.
-/
import proofs.«182016_j59012850647279_1_alg».proof.Defs
import proofs.«182016_j59012850647279_1_alg».proof.Proof.Gen.Kernel
import proofs.«182016_j59012850647279_1_alg».proof.Proof.Gen.Kernel.Skeleton
import proofs.«182016_j59012850647279_1_alg».proof.Proof.Gen.Kernel.Launch
import proofs.«182016_j59012850647279_1_alg».proof.Proof.Gen.Kernel.Points
import proofs.«182016_j59012850647279_1_alg».proof.Proof.Gen.Kernel.Frame
import proofs.«182016_j59012850647279_1_alg».proof.Proof.Gen.KernelIdeal
import proofs.«182016_j59012850647279_1_alg».proof.Proof.Gen.KernelIdeal.Skeleton
import proofs.«182016_j59012850647279_1_alg».proof.Proof.Gen.KernelIdeal.Launch
import proofs.«182016_j59012850647279_1_alg».proof.Proof.Gen.KernelIdeal.Points
import proofs.«182016_j59012850647279_1_alg».proof.Proof.Gen.KernelIdeal.Frame
import proofs.«182016_j59012850647279_1_alg».proof.Proof.Gen.ReferenceIdeal
import proofs.«182016_j59012850647279_1_alg».proof.Proof.Gen.ReferenceIdeal.Run
import proofs.«182016_j59012850647279_1_alg».proof.Proof.Gen.ReferenceIdeal.Read
import proofs.«182016_j59012850647279_1_alg».proof.Proof.Gen.Pre_finite_inputs
import proofs.«182016_j59012850647279_1_alg».proof.Proof.KernelRun
import proofs.«182016_j59012850647279_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments, both programs end with the linear layer of those arguments in
    their result buffers: the kernel's run read as that formula, the reference's run read as that formula. -/
theorem algebraic : Cert.algebraic_KernelIdeal_ReferenceIdeal := by
  intro m ρ m' ρ' _ hagree
  refine ⟨fun c => Cert.Spec.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefSide.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
